-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v48 main_v51
  main_v52

def fn_part2 {F : FTy → Type} [FloatOps F] (main_arg7 : FVec F S256 .f32) (main_arg8 : FVec F S256x64 .f32) (main_arg9 : FVec F S64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0x00000000#32
  let main_v49 : FVec F S256 .f32 := broadcastInDim S256 ![] bcast_S_S256 main_cst_18
  let main_v50 : IVec S256 1 := cmpf .oge main_arg7 main_v49
  fn_part3 (F := F) main_v48 main_v50

def fn_part1 {F : FTy → Type} [FloatOps F] (main_arg4 : FVec F S256 .f32) (main_arg5 : FVec F S256 .f32) (main_arg6 : FVec F S256 .f32) (main_arg7 : FVec F S256 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x256 .f32) (main_arg3 : FVec F S256 .f32) (main_arg4 : FVec F S256 .f32) (main_arg5 : FVec F S256 .f32) (main_arg6 : FVec F S256 .f32) (main_arg7 : FVec F S256 .f32) (main_arg8 : FVec F S256x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1x256 : Shape := ⟨2, ![1, 256]⟩
abbrev S1x64 : Shape := ⟨2, ![1, 64]⟩
abbrev S10000x256 : Shape := ⟨2, ![10000, 256]⟩
abbrev S10000x64 : Shape := ⟨2, ![10000, 64]⟩
abbrev S200x128 : Shape := ⟨2, ![200, 128]⟩
abbrev S200x256 : Shape := ⟨2, ![200, 256]⟩
abbrev S200x10000 : Shape := ⟨2, ![200, 10000]⟩
abbrev S200x64 : Shape := ⟨2, ![200, 64]⟩

abbrev nBuf : Space → Nat
  | .hbm => 24
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x64, .f32⟩
  | .hbm, ⟨21, _⟩ => ⟨S10000x256, .f32⟩
  | .hbm, ⟨22, _⟩ => ⟨S10000x64, .f32⟩
  | .hbm, ⟨23, _⟩ => ⟨S10000x64, .f32⟩
  | .local _ .vmem, ⟨0, _⟩ => ⟨S200x128, .f32⟩
  | .local _ .vmem, ⟨1, _⟩ => ⟨S200x128, .f32⟩
  | .local _ .vmem, ⟨2, _⟩ => ⟨S128x256, .f32⟩
  | .local _ .vmem, ⟨3, _⟩ => ⟨S200x256, .f32⟩
  | .local _ .vmem, ⟨4, _⟩ => ⟨S200x256, .f32⟩
  | .local _ .vmem, ⟨5, _⟩ => ⟨S200x10000, .f32⟩
  | .local _ .vmem, ⟨6, _⟩ => ⟨S200x10000, .f32⟩
  | .local _ .vmem, ⟨7, _⟩ => ⟨S10000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x64, .f32⟩
  | .local _ .vmem, ⟨12, _⟩ => ⟨S200x64, .f32⟩
  | .local _ .vmem, ⟨13, _⟩ => ⟨S200x64, .f32⟩
  | .local _ .vmem, ⟨14, _⟩ => ⟨S200x10000, .f32⟩
  | .local _ .vmem, ⟨15, _⟩ => ⟨S200x10000, .f32⟩
  | .local _ .vmem, ⟨16, _⟩ => ⟨S10000x64, .f32⟩
  | .local _ .vmem, ⟨17, _⟩ => ⟨S1x64, .f32⟩
  | .local _ .vmem, ⟨18, _⟩ => ⟨S200x64, .f32⟩
  | .local _ .vmem, ⟨19, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S256 : S_.BroadcastsInDim S256 (![] : Fin 0 → Fin S256.rank)
  shapeCasts_S256_S1x256 : S256.ShapeCasts S1x256
  shapeCasts_S64_S1x64 : S64.ShapeCasts S1x64
  inb_S200x128_S200x128_0_0 : ∀ a, (![0, 0] : Fin 2 → Nat) a + S200x128.size a ≤ S200x128.size a
  h_S200x128 : 0 < S200x128.numel
  inb_S128x256_S128x256_0_0 : ∀ a, (![0, 0] : Fin 2 → Nat) a + S128x256.size a ≤ S128x256.size a
  h_S128x256 : 0 < S128x256.numel
  inb_S200x256_S200x256_0_0 : ∀ a, (![0, 0] : Fin 2 → Nat) a + S200x256.size a ≤ S200x256.size a
  h_S200x256 : 0 < S200x256.numel
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x64_S256x64_0_0 : ∀ a, (![0, 0] : Fin 2 → Nat) a + S256x64.size a ≤ S256x64.size a
  h_S256x64 : 0 < S256x64.numel
  inb_S200x64_S200x64_0_0 : ∀ a, (![0, 0] : Fin 2 → Nat) a + S200x64.size a ≤ S200x64.size a
  h_S200x64 : 0 < S200x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  dot_S200x128_S128x256_S200x256_1_0_0_1_n_n_wf : DotDims.WF S200x128 S128x256 S200x256 [1] [0] [0] [1] [] []
  dot_S200x10000_S10000x256_S200x256_1_0_0_1_n_n_wf : DotDims.WF S200x10000 S10000x256 S200x256 [1] [0] [0] [1] [] []
  dot_S200x256_S256x64_S200x64_1_0_0_1_n_n_wf : DotDims.WF S200x256 S256x64 S200x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x64.size a ≤ S10000x64.size a
  hwx1_6 : ∀ i : grid1.Coords, EltTy.bits .f32 = 32 ∨ (Rect.block (s := S10000x64) S200x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x64.size a ≤ S10000x64.size a
  hwx2_3 : ∀ i : grid2.Coords, EltTy.bits .f32 = 32 ∨ (Rect.block (s := S10000x64) S200x64.size (cc2_transform_3 i) (hinb2_3 i)).WholeWords (EltTy.packing .f32)

variable [Facts₀]

def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x64_S200x64_1_0_0_1_n_n : DotDims S200x256 S256x64 S200x64 where
  lhsContracting := [1]
  rhsContracting := [0]
  lhsNonContracting := [0]
  rhsNonContracting := [1]
  lhsBatch := []
  rhsBatch := []
  wf := dot_S200x256_S256x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v5) S200x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S200x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S10000x256 : Shape := ⟨2, ![10000, 256]⟩
abbrev S1x256 : Shape := ⟨2, ![1, 256]⟩
abbrev S_ : Shape := ⟨0, ![]⟩
abbrev S10000x64 : Shape := ⟨2, ![10000, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .i1⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S1x256, .f32⟩
  | .hbm, ⟨23, _⟩ => ⟨S10000x256, .f32⟩
  | .hbm, ⟨24, _⟩ => ⟨S10000x256, .f32⟩
  | .hbm, ⟨25, _⟩ => ⟨S1x256, .f32⟩
  | .hbm, ⟨26, _⟩ => ⟨S10000x256, .f32⟩
  | .hbm, ⟨27, _⟩ => ⟨S10000x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S10000x256, .f32⟩
  | .hbm, ⟨34, _⟩ => ⟨S10000x256, .f32⟩
  | .hbm, ⟨35, _⟩ => ⟨S1x256, .f32⟩
  | .hbm, ⟨36, _⟩ => ⟨S10000x256, .f32⟩
  | .hbm, ⟨37, _⟩ => ⟨S10000x256, .f32⟩
  | .hbm, ⟨38, _⟩ => ⟨S10000x64, .f32⟩
  | .hbm, ⟨39, _⟩ => ⟨S10000x64, .f32⟩
  | .hbm, ⟨40, _⟩ => ⟨S1x64, .f32⟩
  | .hbm, ⟨41, _⟩ => ⟨S10000x64, .f32⟩
  | .hbm, ⟨42, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S256 : S_.BroadcastsInDim S256 (![] : Fin 0 → Fin S256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.BatchNorm.lean ====
/-
  The batch-norm step of the network, on the extended reals.

  With a variance v ≥ 0 and a positive ε the number s = v + ε is a positive real, so the reciprocal
  square root of s is the real 1/√s and the square root of s is the nonzero real √s.  For reals γ, β, μ and
  ANY extended real h (an infinity included) the folded form  h·(γ/√s) + (β − μ·(γ/√s))  and the
  direct form  (γ·(h − μ))/√s + β  are then the same extended real: for a real h by the field laws,
  and at an infinity both are the infinity of γ's sign (or β, when γ = 0).
-/
import Idealize.ShloMosaic.PureOps.Ideal

noncomputable section

namespace Cert.Gcn

open Idealize.ShloMosaic

/-- The word 0x3727C5AC (the f32 nearest to 1e-5) denotes a positive real. -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-- The word 0 denotes the real zero. -/
theorem zero_word : Ideal.ofBits .f32 0x00000000#32 = ((0 : ℝ) : EReal) := by
  simp [Ideal.ofBits, Ideal.ieee]

/-- The folded affine form of the batch norm. -/
def bnFold (scale shift : EReal) (h : EReal) : EReal := h * scale + shift

/-- The direct form: centre, scale by γ, divide by the standard deviation, add β. -/
def bnDirect (γ β μ sd : EReal) (h : EReal) : EReal := Ideal.div (γ * (h - μ)) sd + β

theorem bn_eq (γ β μ v e : ℝ) (hv : 0 ≤ v) (he : 0 < e) (h : EReal) :
    bnFold ((γ : EReal) * Ideal.rsqrt ((v : EReal) + (e : EReal)))
        ((β : EReal) - (μ : EReal) * ((γ : EReal) * Ideal.rsqrt ((v : EReal) + (e : EReal)))) h
      = bnDirect γ β μ (Ideal.sqrt ((v : EReal) + (e : EReal))) h := by
  have hs : 0 < v + e := by linarith
  have hsq : 0 < Real.sqrt (v + e) := Real.sqrt_pos.mpr hs
  have hr : 0 < (Real.sqrt (v + e))⁻¹ := inv_pos.mpr hsq
  unfold bnFold bnDirect
  rw [← EReal.coe_add, Ideal.rsqrt_coe, Ideal.sqrt_coe, if_neg (not_lt.mpr hs.le), if_neg hs.ne',
    if_neg (not_lt.mpr hs.le), Ideal.div_coe hsq.ne', one_div]
  generalize (Real.sqrt (v + e))⁻¹ = r at hr
  induction h using EReal.rec with
  | coe x =>
    rw [← EReal.coe_mul, ← EReal.coe_mul, ← EReal.coe_mul, ← EReal.coe_sub, ← EReal.coe_add, ← EReal.coe_sub,
      ← EReal.coe_mul, ← EReal.coe_mul, ← EReal.coe_add]
    congr 1; ring
  | top =>
    rw [EReal.top_sub_coe, ← EReal.coe_mul, ← EReal.coe_mul, ← EReal.coe_sub]
    rcases lt_trichotomy γ 0 with hγ | hγ | hγ
    · rw [EReal.top_mul_coe_of_neg (mul_neg_of_neg_of_pos hγ hr), EReal.coe_mul_top_of_neg hγ,
        EReal.bot_mul_coe_of_pos hr, EReal.bot_add, EReal.bot_add]
    · subst hγ
      simp
    · rw [EReal.top_mul_coe_of_pos (mul_pos hγ hr), EReal.coe_mul_top_of_pos hγ,
        EReal.top_mul_coe_of_pos hr, EReal.top_add_coe, EReal.top_add_coe]
  | bot =>
    rw [EReal.bot_sub, ← EReal.coe_mul, ← EReal.coe_mul, ← EReal.coe_sub]
    rcases lt_trichotomy γ 0 with hγ | hγ | hγ
    · rw [EReal.bot_mul_coe_of_neg (mul_neg_of_neg_of_pos hγ hr), EReal.coe_mul_bot_of_neg hγ,
        EReal.top_mul_coe_of_pos hr, EReal.top_add_coe, EReal.top_add_coe]
    · subst hγ
      simp
    · rw [EReal.bot_mul_coe_of_pos (mul_pos hγ hr), EReal.coe_mul_bot_of_pos hγ,
        EReal.bot_mul_coe_of_pos hr, EReal.bot_add, EReal.bot_add]

end Cert.Gcn

end
-- ==== Proof.PreFacts.lean ====
/-
  What the precondition says of the four batch-norm vectors.

  The precondition is a conjunction, one conjunct per input array "every entry has absolute value below +∞",
  and a last one "every entry of the running variance is ≥ 0". An extended real whose absolute value is
  below +∞ is a real number; so γ, β, the running mean and the running variance are real at every index, and
  the variance is nonnegative there.
-/
import proofs.«164349_g89541478187572_cont_sun_m_865_3_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

instance : Subsingleton S_.Idx := ⟨fun a b => funext fun d => d.elim0⟩

/-- The word 0x7F800000 denotes +∞. -/
theorem inf_word : Ideal.ofBits .f32 0x7F800000#32 = ⊤ := by
  simp [Ideal.ofBits, Ideal.ieee]

/-- The word 0 denotes 0. -/
theorem zero_word : Ideal.ofBits .f32 0x00000000#32 = 0 := by
  simp [Ideal.ofBits, Ideal.ieee]

/-- An extended real with |x| < +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | coe r => exact ⟨r, rfl⟩
  | top => simp [Ideal.cmp] at h
  | bot => simp [Ideal.cmp] at h

/-- A comparison x ≥ 0 that came out true. -/
theorem nonneg_of_ge (x : EReal) (h : Ideal.cmp .oge x (Ideal.ofBits .f32 0x00000000#32) = 1#1) : 0 ≤ x := by
  rw [zero_word] at h
  by_contra hx
  have hd : decide ((0 : EReal) ≤ x) = false := decide_eq_false hx
  simp [Ideal.cmp, hd] at h

variable [Cert.Pre_finite_inputs.Facts]

/-- From the precondition: γ, β, the running mean and the running variance are real at every index, and the
    variance is ≥ 0 there. -/
theorem decode (a0 : FVec Ideal S10000x128 .f32) (a1 : FVec Ideal S10000x10000 .f32) (a2 : FVec Ideal S128x256 .f32)
    (a3 a4 a5 a6 a7 : FVec Ideal S256 .f32) (a8 : FVec Ideal S256x64 .f32) (a9 : FVec Ideal S64 .f32)
    (h : Cert.Pre_finite_inputs.fn (F := Ideal) a0 a1 a2 a3 a4 a5 a6 a7 a8 a9 = fun _ => 1#1) (i : S256.Idx) :
    (∃ r : ℝ, a4 i = (r : EReal)) ∧ (∃ r : ℝ, a5 i = (r : EReal)) ∧ (∃ r : ℝ, a6 i = (r : EReal))
      ∧ (∃ r : ℝ, a7 i = (r : EReal)) ∧ 0 ≤ a7 i := by
  have h0 := congrFun h ix0
  dsimp only [Cert.Pre_finite_inputs.fn, fn_part1, fn_part2, fn_part3] at h0
  obtain ⟨h48, h51⟩ := IntOp.andi_eq_one.1 h0
  obtain ⟨h43, -⟩ := IntOp.andi_eq_one.1 h48
  obtain ⟨h38, -⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨-, h22⟩ := IntOp.andi_eq_one.1 h23
  exact ⟨real_of_abs_lt (a4 i) (Host.reduce_andi_all _ _ _ _ ix0 h22 i),
    real_of_abs_lt (a5 i) (Host.reduce_andi_all _ _ _ _ ix0 h27 i),
    real_of_abs_lt (a6 i) (Host.reduce_andi_all _ _ _ _ ix0 h32 i),
    real_of_abs_lt (a7 i) (Host.reduce_andi_all _ _ _ _ ix0 h37 i),
    nonneg_of_ge (a7 i) (Host.reduce_andi_all _ _ _ _ ix0 h51 i)⟩

end Cert.PreFacts

end
-- ==== Proof.Spec.lean ====
/-
  The network, index by index, on the extended reals.

  Two graph-convolution layers over a dense adjacency matrix:
      s1  = x · W1                                   (10000×128 by 128×256)
      a   = adj · s1 + b1                            (the row b1 added to every row)
      h   = bn (lrelu a)                             (a per-column function bn)
      s2  = h · W2                                   (10000×256 by 256×64)
      out = adj · s2 + b2.
  The per-column function bn is a parameter: the two programs compute it in two ways.
-/
import Idealize.ShloMosaic.Lib.ValueIdx
import Idealize.ShloMosaic.PureOps.Ideal

noncomputable section

open scoped BigOperators

namespace Cert.Gcn

open Idealize.ShloMosaic Idealize.ShloMosaic.ValueIdx

/-- An a×b array of extended reals. -/
abbrev Mat (a b : Nat) : Type := (⟨2, ![a, b]⟩ : Shape).Idx → EReal

/-- The matrix product, entry by entry: entry (p, q) is ∑ k, a[p, k] · b[k, q]. -/
def mmul {M K N : Nat} (a : Mat M K) (b : Mat K N) : Mat M N :=
  fun i => ∑ k : Fin K, a (ix2 (i 0) k) * b (ix2 k (i 1))

theorem mmul_apply {M K N : Nat} (a : Mat M K) (b : Mat K N) (p : Fin M) (q : Fin N) :
    mmul a b (ix2 p q) = ∑ k : Fin K, a (ix2 p k) * b (ix2 k q) := rfl

/-- The leaky rectifier: x where x ≥ 0, else the slope (the value of the word 0x3C23D70A) times x. -/
def lrelu (x : EReal) : EReal :=
  Scalar.select (Ideal.cmp .oge x (Ideal.ofBits .f32 0x00000000#32)) x (Ideal.ofBits .f32 0x3C23D70A#32 * x)

/-- The hidden layer at (p, k): the column's bn of the rectified first-layer pre-activation. -/
def hidden (bn : Fin 256 → EReal → EReal) (adj : Mat 10000 10000) (s1 : Mat 10000 256) (b1 : Fin 256 → EReal)
    (p : Fin 10000) (k : Fin 256) : EReal :=
  bn k (lrelu ((∑ j : Fin 10000, adj (ix2 p j) * s1 (ix2 j k)) + b1 k))

/-- The second layer's features: the hidden layer times W2. -/
def stage1 (bn : Fin 256 → EReal → EReal) (adj : Mat 10000 10000) (s1 : Mat 10000 256) (b1 : Fin 256 → EReal)
    (w2 : Mat 256 64) : Mat 10000 64 :=
  fun i => ∑ k : Fin 256, hidden bn adj s1 b1 (i 0) k * w2 (ix2 k (i 1))

theorem stage1_apply (bn : Fin 256 → EReal → EReal) (adj : Mat 10000 10000) (s1 : Mat 10000 256) (b1 : Fin 256 → EReal)
    (w2 : Mat 256 64) (p : Fin 10000) (q : Fin 64) :
    stage1 bn adj s1 b1 w2 (ix2 p q) = ∑ k : Fin 256, hidden bn adj s1 b1 p k * w2 (ix2 k q) := rfl

/-- The output: the adjacency matrix times the second layer's features, plus the row b2. -/
def stage2 (adj : Mat 10000 10000) (s2 : Mat 10000 64) (b2 : Fin 64 → EReal) : Mat 10000 64 :=
  fun i => (∑ j : Fin 10000, adj (ix2 (i 0) j) * s2 (ix2 j (i 1))) + b2 (i 1)

theorem stage2_apply (adj : Mat 10000 10000) (s2 : Mat 10000 64) (b2 : Fin 64 → EReal) (p : Fin 10000) (q : Fin 64) :
    stage2 adj s2 b2 (ix2 p q) = (∑ j : Fin 10000, adj (ix2 p j) * s2 (ix2 j q)) + b2 q := rfl

/-- The whole network. -/
def net (bn : Fin 256 → EReal → EReal) (x : Mat 10000 128) (adj : Mat 10000 10000) (w1 : Mat 128 256)
    (b1 : Fin 256 → EReal) (w2 : Mat 256 64) (b2 : Fin 64 → EReal) : Mat 10000 64 :=
  stage2 adj (stage1 bn adj (mmul x w1) b1 w2) b2

/-- The network depends on bn only through its values. -/
theorem net_congr {bn bn' : Fin 256 → EReal → EReal} (h : ∀ k x, bn k x = bn' k x) (x : Mat 10000 128)
    (adj : Mat 10000 10000) (w1 : Mat 128 256) (b1 : Fin 256 → EReal) (w2 : Mat 256 64) (b2 : Fin 64 → EReal) :
    net bn x adj w1 b1 w2 b2 = net bn' x adj w1 b1 w2 b2 := by
  have : bn = bn' := funext fun k => funext fun x => h k x
  rw [this]

end Cert.Gcn

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.Blocks.lean ====
/-
  Pieces the three kernel regions share.

  A block of 200 rows: row p of block t is row 200t + p of the array. A bias row kept as a 1×b array and
  spread over a rows reads, at (p, k), the row's entry k. The product of a 200×10000 block of the adjacency
  matrix with a 10000×N array — both rounded to bf16 on the way in, which changes nothing on the extended
  reals — reads, at (p, k), ∑ j, a[p, j] · b[j, k].
-/
import proofs.«164349_g89541478187572_cont_sun_m_865_3_alg».proof.Proof.Spec
import proofs.«164349_g89541478187572_cont_sun_m_865_3_alg».proof.Proof.BatchNorm
import proofs.«164349_g89541478187572_cont_sun_m_865_3_alg».proof.Proof.LibPlainDot
import Idealize.ShloMosaic.Lib.Pipeline.Value
import Idealize.ShloMosaic.Lib.ValueLayout

noncomputable section

open scoped BigOperators

namespace Cert.Gcn

open Idealize.ShloMosaic Idealize.ShloMosaic.ValueIdx

theorem hz2 : (![0, 0] : Fin 2 → Nat) = fun _ => 0 := funext fun a => by fin_cases a <;> rfl

/-- Row p of the t-th block of 200 rows. -/
def rowOf (t p : Nat) (ht : t < 50) (hp : p < 200) : Fin 10000 := ⟨t * 200 + p, by omega⟩

theorem rowOf_val (t p : Nat) (ht : t < 50) (hp : p < 200) : (rowOf t p ht hp).val = t * 200 + p := rfl

/-- A 1×b row, cast to its own shape and spread over a rows, read at (p, k). -/
theorem row_apply {a b : Nat} (x : FVec Ideal ⟨2, ![1, b]⟩ .f32) (h1 : (⟨2, ![1, b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix2 (0 : Fin 1) k) := by
  rw [shapeCast_self]
  exact broadcastTo_1b_ab_apply x h2 p k

/-- The product of a block of adjacency rows with a whole array, through the bf16 roundings, at (p, k). -/
theorem adjdot_apply {N : Nat} (x0 : FVec Ideal ⟨2, ![200, 10000]⟩ .f32) (x2 : FVec Ideal ⟨2, ![10000, N]⟩ .f32)
    (hb : FTy.bits .bf16 < FTy.bits .f32) (hs : (⟨2, ![10000, N]⟩ : Shape).ShapeCasts ⟨2, ![10000, N]⟩)
    (p : Fin 200) (k : Fin N) :
    matmul (DotDims.plain 200 10000 N) none (truncf .bf16 x0 hb)
        (truncf .bf16 (shapeCast ⟨2, ![10000, N]⟩ x2 hs) hb) (constant ⟨2, ![200, N]⟩ .f32 0x00000000#32) (ix2 p k)
      = ∑ j : Fin 10000, x0 (ix2 p j) * x2 (ix2 j k) := by
  rw [shapeCast_self]
  exact PlainDot.matmul_zero_apply 200 10000 N none _ _ p k

/-- Rectify, scale and shift, entry by entry. -/
theorem layer_apply (a r6 r15 r19 : FVec Ideal ⟨2, ![200, 256]⟩ .f32) (i : (⟨2, ![200, 256]⟩ : Shape).Idx) :
    addf (mulf (select (cmpf .oge (addf a r6) (broadcast ⟨2, ![200, 256]⟩ (Scalar.ofBits (F := Ideal) .f32 0x00000000#32)))
        (addf a r6) (mulf (broadcast ⟨2, ![200, 256]⟩ (Scalar.ofBits (F := Ideal) .f32 0x3C23D70A#32)) (addf a r6))) r15) r19 i
      = bnFold (r15 i) (r19 i) (lrelu (a i + r6 i)) := rfl

end Cert.Gcn

end
-- ==== Proof.Region0.lean ====
/-
  The first kernel region: s1 = x · W1, computed block of 200 rows by block of 200 rows.

  Point t of the grid reads rows 200t … 200t+199 of x and all of W1 and writes back the product's rows
  200t … 200t+199; the 50 blocks tile the 10000 rows, so the output array ends holding the whole product,
  whatever the region found in it. Everything is stated at an arbitrary valuation V of the buffers at the
  region's entry.
-/
import proofs.«164349_g89541478187572_cont_sun_m_865_3_alg».proof.Proof.Gen.KernelIdeal.Frame
import proofs.«164349_g89541478187572_cont_sun_m_865_3_alg».proof.Proof.Blocks

set_option maxRecDepth 16384

noncomputable section

open scoped BigOperators

namespace Cert.KernelIdeal.Region0

open Cert.KernelIdeal Cert.KernelIdeal.Gen Idealize.ShloMosaic Idealize.ShloMosaic.ValueIdx Idealize.ShloMosaic.Pipeline
open Idealize.ShloMosaic.TcCoe Idealize.SL.Sem Cert.Gcn

variable (V : (c : Dev nD) → (b : Ref sig .tc) → Buf (Elt Ideal) ((c : Thread nD τ).loc b))

/-- The body's stored value at (p, q) is the product of the two loaded blocks at (p, q). -/
theorem pay_apply (x0 : FVec Ideal S200x128 .f32) (x1 : FVec Ideal S128x256 .f32) (p : Fin 200) (q : Fin 256) :
    k0_pay1 (F := Ideal) x0 x1 (ix2 p q) = ∑ k : Fin 128, x0 (ix2 p k) * x1 (ix2 k q) := by
  unfold k0_pay1
  exact PlainDot.matmul_zero_apply 200 128 256 none x0 x1 p q

/-- The block indices over the grid: x and the output move down one block of rows per point, W1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb_x (t : Fin cfg0.N) (ht : t.val < 50) (p : Fin 200) (k : Fin 128) :
    ((cfg0.win 0).blk t).view.emb (ix2 p k) = ix2 (rowOf t.val p.val ht p.isLt) k := by
  obtain ⟨e0, e1, -⟩ := idx_facts t
  funext a; apply Fin.ext
  match a with
  | ⟨0, _⟩ => show win0_0.index t (0 : Fin 2) * 200 + 1 * p.val = t.val * 200 + p.val; omega
  | ⟨1, _⟩ => show win0_0.index t (1 : Fin 2) * 128 + 1 * k.val = k.val; omega

theorem emb_w (t : Fin cfg0.N) (k : Fin 128) (q : Fin 256) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 128 + 1 * k.val = k.val; omega
  | ⟨1, _⟩ => show win0_1.index t (1 : Fin 2) * 256 + 1 * q.val = q.val; omega

theorem emb_out (t : Fin cfg0.N) (ht : t.val < 50) (p : Fin 200) (q : Fin 256) :
    ((cfg0.win 2).blk t).view.emb (ix2 p q) = ix2 (rowOf t.val p.val ht p.isLt) q := by
  obtain ⟨-, -, -, -, e4, e5⟩ := idx_facts t
  funext a; apply Fin.ext
  match a with
  | ⟨0, _⟩ => show win0_2.index t (0 : Fin 2) * 200 + 1 * p.val = t.val * 200 + p.val; omega
  | ⟨1, _⟩ => show win0_2.index t (1 : Fin 2) * 256 + 1 * q.val = q.val; omega

/-- The block of x at point t, read at (p, k), is x at row 200t + p. -/
theorem blk_x (c : Dev nD) (t : Fin cfg0.N) (ht : t.val < 50) (p : Fin 200) (k : Fin 128) :
    iblk0 V c 0 t (ix2 p k) = V c main_arg0 (ix2 (rowOf t.val p.val ht p.isLt) k) := by
  show V c main_arg0 (((cfg0.win 0).blk t).view.emb (ix2 p k)) = _
  rw [emb_x t ht p k]

/-- The block of W1 at any point is W1. -/
theorem blk_w (c : Dev nD) (t : Fin cfg0.N) (k : Fin 128) (q : Fin 256) :
    iblk0 V c 1 t (ix2 k q) = V c main_arg2 (ix2 k q) := by
  show V c main_arg2 (((cfg0.win 1).blk t).view.emb (ix2 k q)) = _
  rw [emb_w t k q]

/-- What point t writes back is block t of the product of the arrays the region found. -/
theorem flushed_eq (c : Dev nD) (t : Fin cfg0.N) :
    (dat0 V c).flushed 2 t = ((cfg0.win 2).blk t).view.read (Elt Ideal) (mmul (V c main_arg0) (V c main_arg2)) := by
  have ht : t.val < 50 := lt_of_lt_of_eq t.isLt N_0
  show (cfg0.win 2).cut (grid0.coords t) ((dat0 V c).after 2 t) = _
  rw [after0_2]
  unfold out0_2
  rw [View.canon_unit_zero hz2]
  simp only [View.ld_unit_zero (S := S200x128) hz2, View.ld_unit_zero (S := S128x256) hz2]
  funext j
  obtain ⟨p, q, rfl⟩ : ∃ (p : Fin 200) (q : Fin 256), j = ix2 p q := ⟨j 0, j 1, eq_ix2 j⟩
  show k0_pay1 (iblk0 V c 0 t) (iblk0 V c 1 t) (ix2 p q)
    = mmul (V c main_arg0) (V c main_arg2) (((cfg0.win 2).blk t).view.emb (ix2 p q))
  rw [emb_out t ht p q]
  refine (pay_apply (iblk0 V c 0 t) (iblk0 V c 1 t) p q).trans ?_
  refine Finset.sum_congr rfl fun k _ => ?_
  exact congrArg₂ (fun a b : EReal => a * b) (blk_x V c t ht p k) (blk_w V c t k q)

/-- An index of the output array is in point t's block iff its row is among the block's 200 rows. -/
theorem mem_blk (t : Fin cfg0.N) (i : S10000x256.Idx) :
    i ∈ ((cfg0.win 2).blk t).view.set ↔ ∀ a : Fin 2, win0_2.index t a * S200x256.size a ≤ (i a).val ∧ (i a).val < win0_2.index t a * S200x256.size a + S200x256.size a := by
  show i ∈ ((View.whole main_call0_v4).slice (win0_2.rect t)).set ↔ _
  rw [View.set_slice_whole, Rect.mem_set_unit]
  exact Iff.rfl

/-- Every index of the output array is in the block of the point its row divided by 200 names. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 50 := N_0
  obtain ⟨t, htv⟩ : ∃ t : Fin cfg0.N, t.val = (i 0).val / 200 := ⟨⟨(i 0).val / 200, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 256 ≤ (i 1).val ∧ (i 1).val < win0_2.index t (1 : Fin 2) * 256 + 256; omega

/-- The output array after the region is the product of the two argument arrays as the region found them. -/
theorem final (c : Dev nD) : (dat0 V c).arrAt 2 cfg0.N = mmul (V c main_arg0) (V c main_arg2) :=
  (dat0 V c).arrAt_eq_of_cover 2 _ (fun t _ => flushed_eq V c t) cover

end Cert.KernelIdeal.Region0

end
-- ==== Proof.Region1.lean ====
/-
  The second kernel region: s2 = bn (lrelu (adj · s1 + b1)) · W2, block of 200 rows by block of 200 rows, with
  the batch norm in its folded form (scale and shift rows).

  Point t reads rows 200t … 200t+199 of the adjacency matrix and all of s1, the three rows (bias, scale,
  shift, each kept as a 1×256 array) and W2, and writes back rows 200t … 200t+199 of the result; the 50 blocks
  tile the 10000 rows. Everything is stated at an arbitrary valuation V of the buffers at the region's entry.
-/
import proofs.«164349_g89541478187572_cont_sun_m_865_3_alg».proof.Proof.Gen.KernelIdeal.Frame
import proofs.«164349_g89541478187572_cont_sun_m_865_3_alg».proof.Proof.Blocks

set_option maxRecDepth 16384

noncomputable section

open scoped BigOperators

namespace Cert.KernelIdeal.Region1

open Cert.KernelIdeal Cert.KernelIdeal.Gen Idealize.ShloMosaic Idealize.ShloMosaic.ValueIdx Idealize.ShloMosaic.Pipeline
open Idealize.ShloMosaic.TcCoe Idealize.SL.Sem Cert.Gcn

variable (V : (c : Dev nD) → (b : Ref sig .tc) → Buf (Elt Ideal) ((c : Thread nD τ).loc b))

/-- The body's stored value at (p, q): the hidden row p (from the loaded blocks) times column q of W2. -/
theorem pay_apply (x0 : FVec Ideal S200x10000 .f32) (x2 : FVec Ideal S10000x256 .f32) (x6 x15 x19 : FVec Ideal S1x256 .f32)
    (x23 : FVec Ideal S256x64 .f32) (p : Fin 200) (q : Fin 64) :
    k1_pay1 (F := Ideal) x0 x2 x6 x15 x19 x23 (ix2 p q)
      = ∑ k : Fin 256, bnFold (x15 (ix2 (0 : Fin 1) k)) (x19 (ix2 (0 : Fin 1) k))
          (lrelu ((∑ j : Fin 10000, x0 (ix2 p j) * x2 (ix2 j k)) + x6 (ix2 (0 : Fin 1) k))) * x23 (ix2 k q) := by
  unfold k1_pay1
  refine (PlainDot.matmul_zero_apply 200 256 64 none _ _ p q).trans ?_
  refine Finset.sum_congr rfl fun k _ => ?_
  refine congrArg (fun a : EReal => a * x23 (ix2 k q)) ?_
  refine (layer_apply _ _ _ _ (ix2 p k)).trans ?_
  refine congr (congr (congrArg bnFold (row_apply x15 _ _ p k)) (row_apply x19 _ _ p k)) (congrArg lrelu ?_)
  exact congrArg₂ (fun a b : EReal => a + b) (adjdot_apply x0 x2 _ _ p k) (row_apply x6 _ _ p k)

/-- The block indices over the grid: the adjacency rows and the output move down one block per point, the rest stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem emb_adj (t : Fin cfg1.N) (ht : t.val < 50) (p : Fin 200) (j : Fin 10000) :
    ((cfg1.win 0).blk t).view.emb (ix2 p j) = ix2 (rowOf t.val p.val ht p.isLt) j := by
  obtain ⟨e0, e1, -⟩ := idx_facts t
  funext a; apply Fin.ext
  match a with
  | ⟨0, _⟩ => show win1_0.index t (0 : Fin 2) * 200 + 1 * p.val = t.val * 200 + p.val; omega
  | ⟨1, _⟩ => show win1_0.index t (1 : Fin 2) * 10000 + 1 * j.val = j.val; omega

theorem emb_s1 (t : Fin cfg1.N) (j : Fin 10000) (k : Fin 256) :
    ((cfg1.win 1).blk t).view.emb (ix2 j k) = ix2 j k := by
  obtain ⟨-, -, e0, e1, -⟩ := idx_facts t
  funext a; apply Fin.ext
  match a with
  | ⟨0, _⟩ => show win1_1.index t (0 : Fin 2) * 10000 + 1 * j.val = j.val; omega
  | ⟨1, _⟩ => show win1_1.index t (1 : Fin 2) * 256 + 1 * k.val = k.val; omega

theorem emb_b1 (t : Fin cfg1.N) (u : Fin 1) (k : Fin 256) :
    ((cfg1.win 2).blk t).view.emb (ix2 u k) = ix2 u k := by
  obtain ⟨-, -, -, -, e0, e1, -⟩ := idx_facts t
  funext a; apply Fin.ext
  match a with
  | ⟨0, _⟩ => show win1_2.index t (0 : Fin 2) * 1 + 1 * u.val = u.val; omega
  | ⟨1, _⟩ => show win1_2.index t (1 : Fin 2) * 256 + 1 * k.val = k.val; omega

theorem emb_scale (t : Fin cfg1.N) (u : Fin 1) (k : Fin 256) :
    ((cfg1.win 3).blk t).view.emb (ix2 u k) = ix2 u k := by
  obtain ⟨-, -, -, -, -, -, e0, e1, -⟩ := idx_facts t
  funext a; apply Fin.ext
  match a with
  | ⟨0, _⟩ => show win1_3.index t (0 : Fin 2) * 1 + 1 * u.val = u.val; omega
  | ⟨1, _⟩ => show win1_3.index t (1 : Fin 2) * 256 + 1 * k.val = k.val; omega

theorem emb_shift (t : Fin cfg1.N) (u : Fin 1) (k : Fin 256) :
    ((cfg1.win 4).blk t).view.emb (ix2 u k) = ix2 u k := by
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 256 + 1 * k.val = k.val; omega

theorem emb_w2 (t : Fin cfg1.N) (k : Fin 256) (q : Fin 64) :
    ((cfg1.win 5).blk t).view.emb (ix2 k q) = ix2 k q := by
  obtain ⟨-, -, -, -, -, -, -, -, -, -, e0, e1, -⟩ := idx_facts t
  funext a; apply Fin.ext
  match a with
  | ⟨0, _⟩ => show win1_5.index t (0 : Fin 2) * 256 + 1 * k.val = k.val; omega
  | ⟨1, _⟩ => show win1_5.index t (1 : Fin 2) * 64 + 1 * q.val = q.val; omega

theorem emb_out (t : Fin cfg1.N) (ht : t.val < 50) (p : Fin 200) (q : Fin 64) :
    ((cfg1.win 6).blk t).view.emb (ix2 p q) = ix2 (rowOf t.val p.val ht p.isLt) q := by
  obtain ⟨-, -, -, -, -, -, -, -, -, -, -, -, e0, e1⟩ := idx_facts t
  funext a; apply Fin.ext
  match a with
  | ⟨0, _⟩ => show win1_6.index t (0 : Fin 2) * 200 + 1 * p.val = t.val * 200 + p.val; omega
  | ⟨1, _⟩ => show win1_6.index t (1 : Fin 2) * 64 + 1 * q.val = q.val; omega

/-! The input blocks at point t, read at an index, are the arrays the region found. -/

theorem blk_adj (c : Dev nD) (t : Fin cfg1.N) (ht : t.val < 50) (p : Fin 200) (j : Fin 10000) :
    iblk1 V c 0 t (ix2 p j) = V c main_arg1 (ix2 (rowOf t.val p.val ht p.isLt) j) := by
  show V c main_arg1 (((cfg1.win 0).blk t).view.emb (ix2 p j)) = _
  rw [emb_adj t ht p j]

theorem blk_s1 (c : Dev nD) (t : Fin cfg1.N) (j : Fin 10000) (k : Fin 256) :
    iblk1 V c 1 t (ix2 j k) = V c main_call0_v4 (ix2 j k) := by
  show V c main_call0_v4 (((cfg1.win 1).blk t).view.emb (ix2 j k)) = _
  rw [emb_s1 t j k]

theorem blk_b1 (c : Dev nD) (t : Fin cfg1.N) (k : Fin 256) :
    iblk1 V c 2 t (ix2 (0 : Fin 1) k) = V c main_call0_v0 (ix2 (0 : Fin 1) k) := by
  show V c main_call0_v0 (((cfg1.win 2).blk t).view.emb (ix2 (0 : Fin 1) k)) = _
  rw [emb_b1 t 0 k]

theorem blk_scale (c : Dev nD) (t : Fin cfg1.N) (k : Fin 256) :
    iblk1 V c 3 t (ix2 (0 : Fin 1) k) = V c main_call0_v1 (ix2 (0 : Fin 1) k) := by
  show V c main_call0_v1 (((cfg1.win 3).blk t).view.emb (ix2 (0 : Fin 1) k)) = _
  rw [emb_scale t 0 k]

theorem blk_shift (c : Dev nD) (t : Fin cfg1.N) (k : Fin 256) :
    iblk1 V c 4 t (ix2 (0 : Fin 1) k) = V c main_call0_v2 (ix2 (0 : Fin 1) k) := by
  show V c main_call0_v2 (((cfg1.win 4).blk t).view.emb (ix2 (0 : Fin 1) k)) = _
  rw [emb_shift t 0 k]

theorem blk_w2 (c : Dev nD) (t : Fin cfg1.N) (k : Fin 256) (q : Fin 64) :
    iblk1 V c 5 t (ix2 k q) = V c main_arg8 (ix2 k q) := by
  show V c main_arg8 (((cfg1.win 5).blk t).view.emb (ix2 k q)) = _
  rw [emb_w2 t k q]

/-- The region's result as one function of the arrays it found: the folded batch norm reads its scale and shift
    rows, the bias its row. -/
def result (c : Dev nD) : Mat 10000 64 :=
  stage1 (fun k h => bnFold (V c main_call0_v1 (ix2 (0 : Fin 1) k)) (V c main_call0_v2 (ix2 (0 : Fin 1) k)) h)
    (V c main_arg1) (V c main_call0_v4) (fun k => V c main_call0_v0 (ix2 (0 : Fin 1) k)) (V c main_arg8)

/-- What point t writes back is block t of that function. -/
theorem flushed_eq (c : Dev nD) (t : Fin cfg1.N) :
    (dat1 V c).flushed 6 t = ((cfg1.win 6).blk t).view.read (Elt Ideal) (result V c) := by
  have ht : t.val < 50 := lt_of_lt_of_eq t.isLt N_1
  show (cfg1.win 6).cut (grid1.coords t) ((dat1 V c).after 6 t) = _
  rw [after1_6]
  unfold out1_6
  rw [View.canon_unit_zero hz2]
  simp only [View.ld_unit_zero (S := S200x10000) hz2, View.ld_unit_zero (S := S10000x256) hz2,
    View.ld_unit_zero (S := S1x256) hz2, View.ld_unit_zero (S := S256x64) hz2]
  funext j
  obtain ⟨p, q, rfl⟩ : ∃ (p : Fin 200) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = result V c (((cfg1.win 6).blk t).view.emb (ix2 p q))
  rw [emb_out t ht p q]
  unfold result
  rw [stage1_apply]
  refine (pay_apply (iblk1 V c 0 t) (iblk1 V c 1 t) (iblk1 V c 2 t) (iblk1 V c 3 t) (iblk1 V c 4 t) (iblk1 V c 5 t) p q).trans ?_
  refine Finset.sum_congr rfl fun k _ => ?_
  refine congrArg₂ (fun a b : EReal => a * b) ?_ (blk_w2 V c t k q)
  refine congr (congr (congrArg bnFold (blk_scale V c t k)) (blk_shift V c t k)) (congrArg lrelu ?_)
  refine congrArg₂ (fun a b : EReal => a + b) ?_ (blk_b1 V c t k)
  refine Finset.sum_congr rfl fun j _ => ?_
  exact congrArg₂ (fun a b : EReal => a * b) (blk_adj V c t ht p j) (blk_s1 V c t j k)

/-- An index of the output array is in point t's block iff its row is among the block's 200 rows. -/
theorem mem_blk (t : Fin cfg1.N) (i : S10000x64.Idx) :
    i ∈ ((cfg1.win 6).blk t).view.set ↔ ∀ a : Fin 2, win1_6.index t a * S200x64.size a ≤ (i a).val ∧ (i a).val < win1_6.index t a * S200x64.size a + S200x64.size a := by
  show i ∈ ((View.whole main_call0_v5).slice (win1_6.rect t)).set ↔ _
  rw [View.set_slice_whole, Rect.mem_set_unit]
  exact Iff.rfl

/-- Every index of the output array is in the block of the point its row divided by 200 names. -/
theorem cover (i : S10000x64.Idx) :
    ∃ t : Fin cfg1.N, (cfg1.win 6).flush t = true ∧ i ∈ ((cfg1.win 6).blk t).view.set := by
  have hi0 : (i 0).val < 10000 := (i 0).isLt
  have hi1 : (i 1).val < 64 := (i 1).isLt
  have hN : cfg1.N = 50 := N_1
  obtain ⟨t, htv⟩ : ∃ t : Fin cfg1.N, t.val = (i 0).val / 200 := ⟨⟨(i 0).val / 200, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 200 ≤ (i 0).val ∧ (i 0).val < win1_6.index t (0 : Fin 2) * 200 + 200; omega
  | ⟨1, _⟩ => show win1_6.index t (1 : Fin 2) * 64 ≤ (i 1).val ∧ (i 1).val < win1_6.index t (1 : Fin 2) * 64 + 64; omega

/-- The output array after the region is that function of the arrays the region found. -/
theorem final (c : Dev nD) : (dat1 V c).arrAt 6 cfg1.N = result V c :=
  (dat1 V c).arrAt_eq_of_cover 6 _ (fun t _ => flushed_eq V c t) cover

end Cert.KernelIdeal.Region1

end
-- ==== Proof.Region2.lean ====
/-
  The third kernel region: out = adj · s2 + b2, block of 200 rows by block of 200 rows.

  Point t reads rows 200t … 200t+199 of the adjacency matrix, all of s2 and the bias row (kept as a 1×64
  array), and writes back rows 200t … 200t+199 of the result; the 50 blocks tile the 10000 rows. Everything is
  stated at an arbitrary valuation V of the buffers at the region's entry.
-/
import proofs.«164349_g89541478187572_cont_sun_m_865_3_alg».proof.Proof.Gen.KernelIdeal.Frame
import proofs.«164349_g89541478187572_cont_sun_m_865_3_alg».proof.Proof.Blocks

set_option maxRecDepth 16384

noncomputable section

open scoped BigOperators

namespace Cert.KernelIdeal.Region2

open Cert.KernelIdeal Cert.KernelIdeal.Gen Idealize.ShloMosaic Idealize.ShloMosaic.ValueIdx Idealize.ShloMosaic.Pipeline
open Idealize.ShloMosaic.TcCoe Idealize.SL.Sem Cert.Gcn

variable (V : (c : Dev nD) → (b : Ref sig .tc) → Buf (Elt Ideal) ((c : Thread nD τ).loc b))

/-- The body's stored value at (p, q): row p of the adjacency block times column q of s2, plus the bias entry q. -/
theorem pay_apply (x0 : FVec Ideal S200x10000 .f32) (x2 : FVec Ideal S10000x64 .f32) (x6 : FVec Ideal S1x64 .f32)
    (p : Fin 200) (q : Fin 64) :
    k2_pay1 (F := Ideal) x0 x2 x6 (ix2 p q)
      = (∑ j : Fin 10000, x0 (ix2 p j) * x2 (ix2 j q)) + x6 (ix2 (0 : Fin 1) q) := by
  unfold k2_pay1
  exact congrArg₂ (fun a b : EReal => a + b) (adjdot_apply x0 x2 _ _ p q) (row_apply x6 _ _ p q)

/-- The block indices over the grid: the adjacency rows and the output move down one block per point, the rest stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem emb_adj (t : Fin cfg2.N) (ht : t.val < 50) (p : Fin 200) (j : Fin 10000) :
    ((cfg2.win 0).blk t).view.emb (ix2 p j) = ix2 (rowOf t.val p.val ht p.isLt) j := by
  obtain ⟨e0, e1, -⟩ := idx_facts t
  funext a; apply Fin.ext
  match a with
  | ⟨0, _⟩ => show win2_0.index t (0 : Fin 2) * 200 + 1 * p.val = t.val * 200 + p.val; omega
  | ⟨1, _⟩ => show win2_0.index t (1 : Fin 2) * 10000 + 1 * j.val = j.val; omega

theorem emb_s2 (t : Fin cfg2.N) (j : Fin 10000) (q : Fin 64) :
    ((cfg2.win 1).blk t).view.emb (ix2 j q) = ix2 j q := by
  obtain ⟨-, -, e0, e1, -⟩ := idx_facts t
  funext a; apply Fin.ext
  match a with
  | ⟨0, _⟩ => show win2_1.index t (0 : Fin 2) * 10000 + 1 * j.val = j.val; omega
  | ⟨1, _⟩ => show win2_1.index t (1 : Fin 2) * 64 + 1 * q.val = q.val; omega

theorem emb_b2 (t : Fin cfg2.N) (u : Fin 1) (q : Fin 64) :
    ((cfg2.win 2).blk t).view.emb (ix2 u q) = ix2 u q := by
  obtain ⟨-, -, -, -, e0, e1, -⟩ := idx_facts t
  funext a; apply Fin.ext
  match a with
  | ⟨0, _⟩ => show win2_2.index t (0 : Fin 2) * 1 + 1 * u.val = u.val; omega
  | ⟨1, _⟩ => show win2_2.index t (1 : Fin 2) * 64 + 1 * q.val = q.val; omega

theorem emb_out (t : Fin cfg2.N) (ht : t.val < 50) (p : Fin 200) (q : Fin 64) :
    ((cfg2.win 3).blk t).view.emb (ix2 p q) = ix2 (rowOf t.val p.val ht p.isLt) q := by
  obtain ⟨-, -, -, -, -, -, e0, e1⟩ := idx_facts t
  funext a; apply Fin.ext
  match a with
  | ⟨0, _⟩ => show win2_3.index t (0 : Fin 2) * 200 + 1 * p.val = t.val * 200 + p.val; omega
  | ⟨1, _⟩ => show win2_3.index t (1 : Fin 2) * 64 + 1 * q.val = q.val; omega

/-! The input blocks at point t, read at an index, are the arrays the region found. -/

theorem blk_adj (c : Dev nD) (t : Fin cfg2.N) (ht : t.val < 50) (p : Fin 200) (j : Fin 10000) :
    iblk2 V c 0 t (ix2 p j) = V c main_arg1 (ix2 (rowOf t.val p.val ht p.isLt) j) := by
  show V c main_arg1 (((cfg2.win 0).blk t).view.emb (ix2 p j)) = _
  rw [emb_adj t ht p j]

theorem blk_s2 (c : Dev nD) (t : Fin cfg2.N) (j : Fin 10000) (q : Fin 64) :
    iblk2 V c 1 t (ix2 j q) = V c main_call0_v5 (ix2 j q) := by
  show V c main_call0_v5 (((cfg2.win 1).blk t).view.emb (ix2 j q)) = _
  rw [emb_s2 t j q]

theorem blk_b2 (c : Dev nD) (t : Fin cfg2.N) (q : Fin 64) :
    iblk2 V c 2 t (ix2 (0 : Fin 1) q) = V c main_call0_v3 (ix2 (0 : Fin 1) q) := by
  show V c main_call0_v3 (((cfg2.win 2).blk t).view.emb (ix2 (0 : Fin 1) q)) = _
  rw [emb_b2 t 0 q]

/-- The region's result as one function of the arrays it found; the bias reads its row. -/
def result (c : Dev nD) : Mat 10000 64 :=
  stage2 (V c main_arg1) (V c main_call0_v5) (fun q => V c main_call0_v3 (ix2 (0 : Fin 1) q))

/-- What point t writes back is block t of that function. -/
theorem flushed_eq (c : Dev nD) (t : Fin cfg2.N) :
    (dat2 V c).flushed 3 t = ((cfg2.win 3).blk t).view.read (Elt Ideal) (result V c) := by
  have ht : t.val < 50 := lt_of_lt_of_eq t.isLt N_2
  show (cfg2.win 3).cut (grid2.coords t) ((dat2 V c).after 3 t) = _
  rw [after2_3]
  unfold out2_3
  rw [View.canon_unit_zero hz2]
  simp only [View.ld_unit_zero (S := S200x10000) hz2, View.ld_unit_zero (S := S10000x64) hz2,
    View.ld_unit_zero (S := S1x64) hz2]
  funext j
  obtain ⟨p, q, rfl⟩ : ∃ (p : Fin 200) (q : Fin 64), j = ix2 p q := ⟨j 0, j 1, eq_ix2 j⟩
  show k2_pay1 (iblk2 V c 0 t) (iblk2 V c 1 t) (iblk2 V c 2 t) (ix2 p q)
    = result V c (((cfg2.win 3).blk t).view.emb (ix2 p q))
  rw [emb_out t ht p q]
  refine (pay_apply (iblk2 V c 0 t) (iblk2 V c 1 t) (iblk2 V c 2 t) p q).trans ?_
  refine congrArg₂ (fun a b : EReal => a + b) ?_ (blk_b2 V c t q)
  refine Finset.sum_congr rfl fun j _ => ?_
  exact congrArg₂ (fun a b : EReal => a * b) (blk_adj V c t ht p j) (blk_s2 V c t j q)

/-- An index of the output array is in point t's block iff its row is among the block's 200 rows. -/
theorem mem_blk (t : Fin cfg2.N) (i : S10000x64.Idx) :
    i ∈ ((cfg2.win 3).blk t).view.set ↔ ∀ a : Fin 2, win2_3.index t a * S200x64.size a ≤ (i a).val ∧ (i a).val < win2_3.index t a * S200x64.size a + S200x64.size a := by
  show i ∈ ((View.whole main_v6).slice (win2_3.rect t)).set ↔ _
  rw [View.set_slice_whole, Rect.mem_set_unit]
  exact Iff.rfl

/-- Every index of the output array is in the block of the point its row divided by 200 names. -/
theorem cover (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 50 := N_2
  obtain ⟨t, htv⟩ : ∃ t : Fin cfg2.N, t.val = (i 0).val / 200 := ⟨⟨(i 0).val / 200, by rw [hN]; omega⟩, rfl⟩
  obtain ⟨-, -, -, -, -, -, e0, e1⟩ := idx_facts t
  refine ⟨t, flush2_3 t, ?_⟩
  rw [mem_blk]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 64 ≤ (i 1).val ∧ (i 1).val < win2_3.index t (1 : Fin 2) * 64 + 64; omega

/-- The output array after the region is that function of the arrays the region found. -/
theorem final (c : Dev nD) : (dat2 V c).arrAt 3 cfg2.N = result V c :=
  (dat2 V c).arrAt_eq_of_cover 3 _ (fun t _ => flushed_eq V c t) cover

end Cert.KernelIdeal.Region2

end
-- ==== Proof.KernelValue.lean ====
/-
  The kernel program's result, as one function of its argument arrays.

  Its @main runs two stretches of array operations — the folded batch-norm vectors scale = γ · rsqrt(variance + ε)
  and shift = β − mean · scale, then four reshapes of length-n vectors to 1×n rows — and then the three regions.
  Each region's output array is one function of the arrays the region found (the three region modules); the
  arrays a region finds are the arguments as launched, the rows the host stretches wrote, and the previous
  region's output. Chained, the result buffer ends at the network with the batch norm in its folded form.
-/
import proofs.«164349_g89541478187572_cont_sun_m_865_3_alg».proof.Proof.Region0
import proofs.«164349_g89541478187572_cont_sun_m_865_3_alg».proof.Proof.Region1
import proofs.«164349_g89541478187572_cont_sun_m_865_3_alg».proof.Proof.Region2
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.ValueIdx Idealize.ShloMosaic.Pipeline
open Idealize.ShloMosaic.TcCoe Idealize.SL.Sem Idealize.ShloMosaic.StableHlo Cert.Gcn

/-- Entry k of a length-b vector. -/
def vecAt {b : Nat} (f : FVec Ideal ⟨1, ![b]⟩ .f32) (k : Fin b) : EReal := f (ix1 k)

/-- Entry k of a 1×b row. -/
def rowAt {b : Nat} (f : FVec Ideal ⟨2, ![1, b]⟩ .f32) (k : Fin b) : EReal := f (ix2 (0 : Fin 1) k)

/-- The folded scale of column k: γ · rsqrt(variance + ε). -/
def scaleK (γ var : FVec Ideal S256 .f32) (k : Fin 256) : EReal :=
  vecAt γ k * Ideal.rsqrt (vecAt var k + Ideal.ofBits .f32 0x3727C5AC#32)

/-- The folded shift of column k: β − mean · scale. -/
def shiftK (γ β μ var : FVec Ideal S256 .f32) (k : Fin 256) : EReal := vecAt β k - vecAt μ k * scaleK γ var k

/-- The folded batch norm of column k. -/
def bnK (γ β μ var : FVec Ideal S256 .f32) (k : Fin 256) (h : EReal) : EReal :=
  bnFold (scaleK γ var k) (shiftK γ β μ var k) h

/-! ## The two host stretches, over any contents W of the buffers before them -/

section Host
variable (W : Valuation τ sig (Elt Ideal))

theorem host0_scale (k : Fin 256) :
    vecAt (after (hostOps0 (F := Ideal)) W (Proc.devRef .tc main_v3)) k
      = scaleK (W (Proc.devRef .tc main_arg4)) (W (Proc.devRef .tc main_arg7)) k := by
  unfold vecAt
  after_results
  rfl

theorem host0_shift (k : Fin 256) :
    vecAt (after (hostOps0 (F := Ideal)) W (Proc.devRef .tc main_v5)) k
      = shiftK (W (Proc.devRef .tc main_arg4)) (W (Proc.devRef .tc main_arg5)) (W (Proc.devRef .tc main_arg6))
          (W (Proc.devRef .tc main_arg7)) k := by
  unfold vecAt
  after_results
  rfl

theorem host0_arg3 : after (hostOps0 (F := Ideal)) W (Proc.devRef .tc main_arg3) = W (Proc.devRef .tc main_arg3) := by
  after_results

theorem host0_arg9 : after (hostOps0 (F := Ideal)) W (Proc.devRef .tc main_arg9) = W (Proc.devRef .tc main_arg9) := by
  after_results

theorem host1_b1 (k : Fin 256) :
    rowAt (after (hostOps0_1 (F := Ideal)) W (Proc.devRef .tc main_call0_v0)) k = vecAt (W (Proc.devRef .tc main_arg3)) k := by
  unfold rowAt vecAt
  after_results
  exact shapeCast_a_1a_apply _ _ 0 k

theorem host1_scale (k : Fin 256) :
    rowAt (after (hostOps0_1 (F := Ideal)) W (Proc.devRef .tc main_call0_v1)) k = vecAt (W (Proc.devRef .tc main_v3)) k := by
  unfold rowAt vecAt
  after_results
  exact shapeCast_a_1a_apply _ _ 0 k

theorem host1_shift (k : Fin 256) :
    rowAt (after (hostOps0_1 (F := Ideal)) W (Proc.devRef .tc main_call0_v2)) k = vecAt (W (Proc.devRef .tc main_v5)) k := by
  unfold rowAt vecAt
  after_results
  exact shapeCast_a_1a_apply _ _ 0 k

theorem host1_b2 (q : Fin 64) :
    rowAt (after (hostOps0_1 (F := Ideal)) W (Proc.devRef .tc main_call0_v3)) q = vecAt (W (Proc.devRef .tc main_arg9)) q := by
  unfold rowAt vecAt
  after_results
  exact shapeCast_a_1a_apply _ _ 0 q

end Host

variable (m : (ℓ : Loc nD τ sig) → Buf (Elt Ideal) ℓ) (ρ : Dev nD → PrngReg)

/-! ## The arguments, as each region finds them -/

theorem V4_arg1 (c : Dev nD) : V4 m ρ c main_arg1 = m ((c : Thread nD τ).loc main_arg1) :=
  ((W5_arr m ρ c 0).trans (((dat2 (V4 m ρ) c).arrAt_in 0 rfl _).trans (A_eq2 (V4 m ρ) c 0))).symm.trans (W5_main_arg1 m ρ c)

theorem V3_arg1 (c : Dev nD) : V3 m ρ c main_arg1 = m ((c : Thread nD τ).loc main_arg1) :=
  ((W4_arr m ρ c 0).trans (((dat1 (V3 m ρ) c).arrAt_in 0 rfl _).trans (A_eq1 (V3 m ρ) c 0))).symm.trans (V4_arg1 m ρ c)

theorem V3_arg8 (c : Dev nD) : V3 m ρ c main_arg8 = m ((c : Thread nD τ).loc main_arg8) :=
  ((W4_arr m ρ c 5).trans (((dat1 (V3 m ρ) c).arrAt_in 5 rfl _).trans (A_eq1 (V3 m ρ) c 5))).symm.trans
    ((W5_of_ne m ρ c main_arg8 (by decide)).symm.trans (W5_main_arg8 m ρ c))

theorem V2_arg0 (c : Dev nD) : V2 m ρ c main_arg0 = m ((c : Thread nD τ).loc main_arg0) :=
  ((W3_arr m ρ c 0).trans (((dat0 (V2 m ρ) c).arrAt_in 0 rfl _).trans (A_eq0 (V2 m ρ) c 0))).symm.trans
    ((W4_of_ne m ρ c main_arg0 (by decide)).symm.trans ((W5_of_ne m ρ c main_arg0 (by decide)).symm.trans (W5_main_arg0 m ρ c)))

theorem V2_arg2 (c : Dev nD) : V2 m ρ c main_arg2 = m ((c : Thread nD τ).loc main_arg2) :=
  ((W3_arr m ρ c 1).trans (((dat0 (V2 m ρ) c).arrAt_in 1 rfl _).trans (A_eq0 (V2 m ρ) c 1))).symm.trans
    ((W4_of_ne m ρ c main_arg2 (by decide)).symm.trans ((W5_of_ne m ρ c main_arg2 (by decide)).symm.trans (W5_main_arg2 m ρ c)))

/-! ## The rows the host stretches wrote, as the regions find them -/

theorem V3_b1 (c : Dev nD) (k : Fin 256) :
    rowAt (V3 m ρ c main_call0_v0) k = vecAt (m ((c : Thread nD τ).loc main_arg3)) k :=
  (congrArg (fun f => rowAt f k) (W3_of_ne m ρ c main_call0_v0 (by decide))).trans
    ((host1_b1 (W1 m ρ c) k).trans (congrArg (fun f => vecAt f k) (host0_arg3 (W0 m ρ c))))

theorem V3_scale (c : Dev nD) (k : Fin 256) :
    rowAt (V3 m ρ c main_call0_v1) k
      = scaleK (m ((c : Thread nD τ).loc main_arg4)) (m ((c : Thread nD τ).loc main_arg7)) k :=
  (congrArg (fun f => rowAt f k) (W3_of_ne m ρ c main_call0_v1 (by decide))).trans
    ((host1_scale (W1 m ρ c) k).trans (host0_scale (W0 m ρ c) k))

theorem V3_shift (c : Dev nD) (k : Fin 256) :
    rowAt (V3 m ρ c main_call0_v2) k
      = shiftK (m ((c : Thread nD τ).loc main_arg4)) (m ((c : Thread nD τ).loc main_arg5))
          (m ((c : Thread nD τ).loc main_arg6)) (m ((c : Thread nD τ).loc main_arg7)) k :=
  (congrArg (fun f => rowAt f k) (W3_of_ne m ρ c main_call0_v2 (by decide))).trans
    ((host1_shift (W1 m ρ c) k).trans (host0_shift (W0 m ρ c) k))

theorem V4_b2 (c : Dev nD) (q : Fin 64) :
    rowAt (V4 m ρ c main_call0_v3) q = vecAt (m ((c : Thread nD τ).loc main_arg9)) q :=
  (congrArg (fun f => rowAt f q) ((W4_of_ne m ρ c main_call0_v3 (by decide)).trans (W3_of_ne m ρ c main_call0_v3 (by decide)))).trans
    ((host1_b2 (W1 m ρ c) q).trans (congrArg (fun f => vecAt f q) (host0_arg9 (W0 m ρ c))))

/-! ## The regions' outputs, chained -/

/-- Region 0's output, as region 1 finds it: x · W1 of the arguments. -/
theorem V3_s1 (c : Dev nD) :
    V3 m ρ c main_call0_v4 = mmul (m ((c : Thread nD τ).loc main_arg0)) (m ((c : Thread nD τ).loc main_arg2)) :=
  ((W3_arr m ρ c 2).trans (Region0.final (V2 m ρ) c)).trans
    (congr (congrArg mmul (V2_arg0 m ρ c)) (V2_arg2 m ρ c))

/-- The network of the arguments, with the folded batch norm. -/
def netK (c : Dev nD) : Mat 10000 64 :=
  net (bnK (m ((c : Thread nD τ).loc main_arg4)) (m ((c : Thread nD τ).loc main_arg5))
      (m ((c : Thread nD τ).loc main_arg6)) (m ((c : Thread nD τ).loc main_arg7)))
    (m ((c : Thread nD τ).loc main_arg0)) (m ((c : Thread nD τ).loc main_arg1)) (m ((c : Thread nD τ).loc main_arg2))
    (fun k => vecAt (m ((c : Thread nD τ).loc main_arg3)) k) (m ((c : Thread nD τ).loc main_arg8))
    (fun q => vecAt (m ((c : Thread nD τ).loc main_arg9)) q)

/-- Region 1's output, as region 2 finds it. -/
theorem V4_s2 (c : Dev nD) :
    V4 m ρ c main_call0_v5
      = stage1 (bnK (m ((c : Thread nD τ).loc main_arg4)) (m ((c : Thread nD τ).loc main_arg5))
            (m ((c : Thread nD τ).loc main_arg6)) (m ((c : Thread nD τ).loc main_arg7)))
          (m ((c : Thread nD τ).loc main_arg1))
          (mmul (m ((c : Thread nD τ).loc main_arg0)) (m ((c : Thread nD τ).loc main_arg2)))
          (fun k => vecAt (m ((c : Thread nD τ).loc main_arg3)) k) (m ((c : Thread nD τ).loc main_arg8)) := by
  refine ((W4_arr m ρ c 6).trans (Region1.final (V3 m ρ) c)).trans ?_
  unfold Region1.result
  have hbn : (fun (k : Fin 256) (h : EReal) => bnFold (V3 m ρ c main_call0_v1 (ix2 (0 : Fin 1) k))
        (V3 m ρ c main_call0_v2 (ix2 (0 : Fin 1) k)) h)
      = bnK (m ((c : Thread nD τ).loc main_arg4)) (m ((c : Thread nD τ).loc main_arg5))
          (m ((c : Thread nD τ).loc main_arg6)) (m ((c : Thread nD τ).loc main_arg7)) :=
    funext fun k => funext fun h => congr (congr (congrArg bnFold (V3_scale m ρ c k)) (V3_shift m ρ c k)) rfl
  have hb1 : (fun k : Fin 256 => (V3 m ρ c main_call0_v0 (ix2 (0 : Fin 1) k) : EReal))
      = fun k => vecAt (m ((c : Thread nD τ).loc main_arg3)) k := funext fun k => V3_b1 m ρ c k
  exact congr (congr (congr (congr (congrArg stage1 hbn) (V3_arg1 m ρ c)) (V3_s1 m ρ c)) hb1) (V3_arg8 m ρ c)

/-- THE KERNEL'S RESULT: the last boundary's contents of the result buffer are the network of the arguments. -/
theorem result_eq (c : Dev nD) : W5 m ρ c (Proc.devRef .tc main_v6) = netK m c := by
  refine ((W5_arr m ρ c 3).trans (Region2.final (V4 m ρ) c)).trans ?_
  unfold Region2.result netK net
  have hb2 : (fun q : Fin 64 => (V4 m ρ c main_call0_v3 (ix2 (0 : Fin 1) q) : EReal))
      = fun q => vecAt (m ((c : Thread nD τ).loc main_arg9)) q := funext fun q => V4_b2 m ρ c q
  exact congr (congr (congrArg stage2 (V4_arg1 m ρ c)) (V4_s2 m ρ c)) hb2

end Cert.KernelIdeal.KValue

end
-- ==== Proof.RefValue.lean ====
/-
  The reference program computes the network with the batch norm in its direct form.

  Its run is a chain of 33 array operations; read one operation at a time at an index (the generated reading
  lemmas), the chain is: the product x · W1; the adjacency matrix times it plus the row b1; the rectifier; the
  direct batch norm (centre by the running mean, scale by γ, divide by the square root of variance + ε, add β —
  every row vector spread over the 10000 rows); the product with W2; the adjacency matrix times that plus the row
  b2. The index functions of the broadcasts and products are identified with (p, q) coordinates.
-/
import proofs.«164349_g89541478187572_cont_sun_m_865_3_alg».proof.Proof.Gen.ReferenceIdeal.Read
import proofs.«164349_g89541478187572_cont_sun_m_865_3_alg».proof.Proof.Spec
import proofs.«164349_g89541478187572_cont_sun_m_865_3_alg».proof.Proof.BatchNorm

noncomputable section

open scoped BigOperators

namespace Cert.ReferenceIdeal.RefValue

open Cert.ReferenceIdeal Cert.ReferenceIdeal.Read Idealize.ShloMosaic Idealize.ShloMosaic.ValueIdx Cert.Gcn

variable (x0 : FVec Ideal S10000x128 .f32) (x1 : FVec Ideal S10000x10000 .f32) (x2 : FVec Ideal S128x256 .f32)
  (x3 x4 x5 x6 x7 : FVec Ideal S256 .f32) (x8 : FVec Ideal S256x64 .f32) (x9 : FVec Ideal S64 .f32)

/-- The direct batch norm of column k. -/
def bnR (k : Fin 256) (h : EReal) : EReal :=
  bnDirect (x4 (ix1 k)) (x5 (ix1 k)) (x6 (ix1 k)) (Ideal.sqrt (x7 (ix1 k) + Ideal.ofBits .f32 0x3727C5AC#32)) h

/-! The index functions of the generated reading lemmas, at (p, q) coordinates. -/

theorem l0 (p : Fin 10000) (q : Fin 256) (k : Fin 128) : lidx_main_v0 (ix2 p q) k = ix2 p k :=
  funext fun a => Fin.ext (by match a with | ⟨0, _⟩ => rfl | ⟨1, _⟩ => rfl)
theorem r0 (p : Fin 10000) (q : Fin 256) (k : Fin 128) : ridx_main_v0 (ix2 p q) k = ix2 k q :=
  funext fun a => Fin.ext (by match a with | ⟨0, _⟩ => rfl | ⟨1, _⟩ => rfl)
theorem l1 (p : Fin 10000) (q : Fin 256) (k : Fin 10000) : lidx_main_v1 (ix2 p q) k = ix2 p k :=
  funext fun a => Fin.ext (by match a with | ⟨0, _⟩ => rfl | ⟨1, _⟩ => rfl)
theorem r1 (p : Fin 10000) (q : Fin 256) (k : Fin 10000) : ridx_main_v1 (ix2 p q) k = ix2 k q :=
  funext fun a => Fin.ext (by match a with | ⟨0, _⟩ => rfl | ⟨1, _⟩ => rfl)
theorem l25 (p : Fin 10000) (q : Fin 64) (k : Fin 256) : lidx_main_v25 (ix2 p q) k = ix2 p k :=
  funext fun a => Fin.ext (by match a with | ⟨0, _⟩ => rfl | ⟨1, _⟩ => rfl)
theorem r25 (p : Fin 10000) (q : Fin 64) (k : Fin 256) : ridx_main_v25 (ix2 p q) k = ix2 k q :=
  funext fun a => Fin.ext (by match a with | ⟨0, _⟩ => rfl | ⟨1, _⟩ => rfl)
theorem l26 (p : Fin 10000) (q : Fin 64) (k : Fin 10000) : lidx_main_v26 (ix2 p q) k = ix2 p k :=
  funext fun a => Fin.ext (by match a with | ⟨0, _⟩ => rfl | ⟨1, _⟩ => rfl)
theorem r26 (p : Fin 10000) (q : Fin 64) (k : Fin 10000) : ridx_main_v26 (ix2 p q) k = ix2 k q :=
  funext fun a => Fin.ext (by match a with | ⟨0, _⟩ => rfl | ⟨1, _⟩ => rfl)
theorem i3 (p : Fin 10000) (k : Fin 256) : idx_main_v2 (idx_main_v3 (ix2 p k)) = ix1 k :=
  funext fun a => Fin.ext (by match a with | ⟨0, _⟩ => rfl)
theorem i11 (p : Fin 10000) (k : Fin 256) : idx_main_v10 (idx_main_v11 (ix2 p k)) = ix1 k :=
  funext fun a => Fin.ext (by match a with | ⟨0, _⟩ => rfl)
theorem i14 (p : Fin 10000) (k : Fin 256) : idx_main_v13 (idx_main_v14 (ix2 p k)) = ix1 k :=
  funext fun a => Fin.ext (by match a with | ⟨0, _⟩ => rfl)
theorem i20 (p : Fin 10000) (k : Fin 256) : idx_main_v19 (idx_main_v20 (ix2 p k)) = ix1 k :=
  funext fun a => Fin.ext (by match a with | ⟨0, _⟩ => rfl)
theorem i23 (p : Fin 10000) (k : Fin 256) : idx_main_v22 (idx_main_v23 (ix2 p k)) = ix1 k :=
  funext fun a => Fin.ext (by match a with | ⟨0, _⟩ => rfl)
theorem i28 (p : Fin 10000) (q : Fin 64) : idx_main_v27 (idx_main_v28 (ix2 p q)) = ix1 q :=
  funext fun a => Fin.ext (by match a with | ⟨0, _⟩ => rfl)

/-- The first product. -/
theorem v0_eq : val_main_v0 (F := Ideal) x0 x2 = mmul x0 x2 := by
  funext i
  obtain ⟨p, q, rfl⟩ : ∃ (p : Fin 10000) (q : Fin 256), i = ix2 p q := ⟨i 0, i 1, eq_ix2 i⟩
  rw [val_main_v0_apply, mmul_apply]
  refine Finset.sum_congr rfl fun k _ => ?_
  rw [l0, r0]

/-- The first layer's pre-activation at (p, k). -/
theorem v4_at (p : Fin 10000) (k : Fin 256) :
    val_main_v4 (F := Ideal) x0 x1 x2 x3 (ix2 p k)
      = (∑ j : Fin 10000, x1 (ix2 p j) * mmul x0 x2 (ix2 j k)) + x3 (ix1 k) := by
  rw [val_main_v4_apply, val_main_v1_apply, val_main_v3_apply, val_main_v2_apply, i3, v0_eq]
  refine congrArg (fun a : EReal => a + x3 (ix1 k)) ?_
  refine Finset.sum_congr rfl fun j _ => ?_
  rw [l1, r1]

/-- The rectified pre-activation at (p, k). -/
theorem v9_at (p : Fin 10000) (k : Fin 256) :
    val_main_v9 (F := Ideal) x0 x1 x2 x3 (ix2 p k)
      = lrelu ((∑ j : Fin 10000, x1 (ix2 p j) * mmul x0 x2 (ix2 j k)) + x3 (ix1 k)) := by
  rw [val_main_v9_apply, val_main_v6_apply, val_main_v8_apply, val_main_v5_apply, val_main_cst_apply,
    val_main_v7_apply, val_main_cst_0_apply, v4_at]
  rfl

/-- The hidden layer at (p, k): the direct batch norm of the rectified pre-activation. -/
theorem v24_at (p : Fin 10000) (k : Fin 256) :
    val_main_v24 (F := Ideal) x0 x1 x2 x3 x4 x5 x6 x7 (ix2 p k)
      = hidden (bnR x4 x5 x6 x7) x1 (mmul x0 x2) (fun k => x3 (ix1 k)) p k := by
  rw [val_main_v24_apply, val_main_v21_apply, val_main_v15_apply, val_main_v12_apply, v9_at,
    val_main_v11_apply, val_main_v10_apply, i11, val_main_v14_apply, val_main_v13_apply, i14,
    val_main_v20_apply, val_main_v19_apply, i20, val_main_v18_apply, val_main_v17_apply, val_main_v16_apply,
    val_main_cst_1_apply, val_main_v23_apply, val_main_v22_apply, i23]
  rfl

/-- The second layer's features. -/
theorem v25_eq : val_main_v25 (F := Ideal) x0 x1 x2 x3 x4 x5 x6 x7 x8
      = stage1 (bnR x4 x5 x6 x7) x1 (mmul x0 x2) (fun k => x3 (ix1 k)) x8 := by
  funext i
  obtain ⟨p, q, rfl⟩ : ∃ (p : Fin 10000) (q : Fin 64), i = ix2 p q := ⟨i 0, i 1, eq_ix2 i⟩
  rw [val_main_v25_apply, stage1_apply]
  refine Finset.sum_congr rfl fun k _ => ?_
  rw [l25, r25, v24_at]

/-- The reference's result is the network with the direct batch norm. -/
theorem ref_eq : val_main_v29 (F := Ideal) x0 x1 x2 x3 x4 x5 x6 x7 x8 x9
      = net (bnR x4 x5 x6 x7) x0 x1 x2 (fun k => x3 (ix1 k)) x8 (fun q => x9 (ix1 q)) := by
  funext i
  obtain ⟨p, q, rfl⟩ : ∃ (p : Fin 10000) (q : Fin 64), i = ix2 p q := ⟨i 0, i 1, eq_ix2 i⟩
  unfold net
  rw [val_main_v29_apply, val_main_v26_apply, val_main_v28_apply, val_main_v27_apply, i28, v25_eq, stage2_apply]
  refine congrArg (fun a : EReal => a + x9 (ix1 q)) ?_
  refine Finset.sum_congr rfl fun j _ => ?_
  rw [l26, r26]

end Cert.ReferenceIdeal.RefValue

end
-- ==== Proof.lean ====
/-
  The certificate of a two-layer graph-convolution network over a dense adjacency matrix:

      out = adj · (bn (lrelu (adj · (x · W1) + b1)) · W2) + b2,

  computed by a kernel program of three regions (x · W1; the first layer with its rectifier, batch norm and the
  product with W2 fused per block of 200 rows; the second layer) against a plain array program.

  On the extended reals the only difference between the two is the batch norm: the kernel folds it into
  scale = γ · rsqrt(variance + ε), shift = β − mean · scale and computes h · scale + shift; the reference computes
  (γ · (h − mean)) / sqrt(variance + ε) + β. Under the precondition — every input finite, the running variance
  nonnegative — variance + ε is a positive real, and the two forms agree at every extended real h (BatchNorm.lean).
  The roundings to bf16 on the way into the two large products are the identity here, and the tiling of the 10000
  rows into 50 blocks of 200 is invisible in the result (Region0 / Region1 / Region2). The three frames are the
  generated ones; nothing was rewritten by the idealization, so there is nothing to preserve.
-/
import proofs.«164349_g89541478187572_cont_sun_m_865_3_alg».proof.Defs
import proofs.«164349_g89541478187572_cont_sun_m_865_3_alg».proof.Proof.Gen.Kernel
import proofs.«164349_g89541478187572_cont_sun_m_865_3_alg».proof.Proof.Gen.Kernel.Frame
import proofs.«164349_g89541478187572_cont_sun_m_865_3_alg».proof.Proof.Gen.KernelIdeal
import proofs.«164349_g89541478187572_cont_sun_m_865_3_alg».proof.Proof.Gen.KernelIdeal.Frame
import proofs.«164349_g89541478187572_cont_sun_m_865_3_alg».proof.Proof.Gen.ReferenceIdeal
import proofs.«164349_g89541478187572_cont_sun_m_865_3_alg».proof.Proof.Gen.ReferenceIdeal.Run
import proofs.«164349_g89541478187572_cont_sun_m_865_3_alg».proof.Proof.Gen.ReferenceIdeal.Read
import proofs.«164349_g89541478187572_cont_sun_m_865_3_alg».proof.Proof.Gen.Pre_finite_inputs
import proofs.«164349_g89541478187572_cont_sun_m_865_3_alg».proof.Proof.BatchNorm
import proofs.«164349_g89541478187572_cont_sun_m_865_3_alg».proof.Proof.PreFacts
import proofs.«164349_g89541478187572_cont_sun_m_865_3_alg».proof.Proof.KernelRun
import proofs.«164349_g89541478187572_cont_sun_m_865_3_alg».proof.Proof.KernelValue
import proofs.«164349_g89541478187572_cont_sun_m_865_3_alg».proof.Proof.RefValue
import Idealize.ShloMosaic.Adequacy
import Idealize.ShloMosaic.Init

noncomputable section

namespace Cert.Proof

open Idealize.ShloMosaic Idealize.ShloMosaic.ValueIdx Idealize.SL.Sem Cert.Gcn
open Cert.KernelIdeal.KValue Cert.ReferenceIdeal.RefValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the folded and the direct batch norm of a column are one function: γ, β, the running mean
    and the running variance are real there, the variance is ≥ 0 and ε is a positive real. -/
theorem bn_agree (γ β μ var : FVec Ideal Cert.KernelIdeal.S256 .f32) (k : Fin 256)
    (hγ : ∃ r : ℝ, γ (ix1 k) = (r : EReal)) (hβ : ∃ r : ℝ, β (ix1 k) = (r : EReal))
    (hμ : ∃ r : ℝ, μ (ix1 k) = (r : EReal)) (hv : ∃ r : ℝ, var (ix1 k) = (r : EReal)) (hv0 : 0 ≤ var (ix1 k))
    (h : EReal) : bnK γ β μ var k h = bnR γ β μ var k h := by
  obtain ⟨g, hg⟩ := hγ
  obtain ⟨b, hb⟩ := hβ
  obtain ⟨u, hu⟩ := hμ
  obtain ⟨v, hv⟩ := hv
  obtain ⟨e, he, hew⟩ := Cert.Gcn.eps_pos
  have hv0' : 0 ≤ v := by rw [hv] at hv0; exact_mod_cast hv0
  unfold bnK shiftK scaleK vecAt bnR
  rw [hg, hb, hu, hv, hew]
  exact Cert.Gcn.bn_eq g b u v e hv0' he h

theorem algebraic : Cert.algebraic_KernelIdeal_ReferenceIdeal := by
  intro m ρ m' ρ' hpre hagree
  refine ⟨fun c => netK m c, ?_, ?_⟩
  · exact (θ_run Cert.KernelIdeal.defs _ _).mono
      (fun r h c => ⟨(h c).1.trans (result_eq m ρ c), (h c).2⟩) (Cert.KernelIdeal.GenP.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, ref_eq]
    obtain ⟨h0, h1, h2, h3, h4, h5, h6, h7, h8, h9⟩ := hagree c
    rw [h0, h1, h2, h3, h4, h5, h6, h7, h8, h9]
    refine (net_congr (fun k x => ?_) _ _ _ _ _ _).symm
    obtain ⟨d4, d5, d6, d7, d70⟩ := Cert.PreFacts.decode _ _ _ _ _ _ _ _ _ _ (hpre c) (ix1 k)
    exact bn_agree _ _ _ _ k d4 d5 d6 d7 d70 x

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
